-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S16x4096 .f32) (main_arg2 : FVec F S4096x16 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512x16 : Shape := ⟨2, ![512, 16]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S4096x16, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S16x4096_S16x4096_0_0 : ∀ a, (![0, 0] : Fin 2 → Nat) a + S16x4096.size a ≤ S16x4096.size a
  h_S16x4096 : 0 < S16x4096.numel
  inb_S4096x16_S4096x16_0_0 : ∀ a, (![0, 0] : Fin 2 → Nat) a + S4096x16.size a ≤ S4096x16.size a
  h_S4096x16 : 0 < S4096x16.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S8192x4096_S4x2048x4096 : S8192x4096.ShapeCasts S4x2048x4096
  dot_S512x4096_S16x4096_S512x16_1_1_0_0_n_n_wf : DotDims.WF S512x4096 S16x4096 S512x16 [1] [1] [0] [0] [] []
  dot_S512x16_S4096x16_S512x4096_1_1_0_0_n_n_wf : DotDims.WF S512x16 S4096x16 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .f32 = 32 ∨ (Rect.block (s := S4096x16) S4096x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf
def dot_S512x16_S4096x16_S512x4096_1_1_0_0_n_n : DotDims S512x16 S4096x16 S512x4096 where
  lhsContracting := [1]
  rhsContracting := [1]
  lhsNonContracting := [0]
  rhsNonContracting := [0]
  lhsBatch := []
  rhsBatch := []
  wf := dot_S512x16_S4096x16_S512x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16x4096 : Shape := ⟨2, ![16, 4096]⟩
abbrev S4096x16 : Shape := ⟨2, ![4096, 16]⟩
abbrev S4096 : Shape := ⟨1, ![4096]⟩
abbrev S4096x4096 : Shape := ⟨2, ![4096, 4096]⟩
abbrev S_ : Shape := ⟨0, ![]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.SumLaw.lean ====
/-
  The one algebraic law between the two arrangements of a rank-limited linear map.

  Take a vector x over a finite index set K, a family of rows a r over K for r in a finite set R, weights b r
  and a scale c.  Contracting x with every row first, scaling, and then combining the results with the weights,

      sum over r of ((sum over k of x k * a r k) * c) * b r,

  is the same number as first combining the rows with the weights, scaling, and contracting x with the combined
  row,

      sum over k of x k * ((sum over r of b r * a r k) * c):

  both are the double sum of x k * a r k * c * b r, by distributing the products over the finite sums and
  exchanging the two sums.  Distributivity fails on the extended reals at the infinities, so the law is proved
  for real numbers and carried to extended reals whose entries are all real.
-/
import Mathlib.Data.EReal.Basic
import Mathlib.Algebra.BigOperators.Ring.Finset
import Mathlib.Algebra.BigOperators.Group.Finset.Sigma
import Mathlib.Tactic.Ring

open scoped BigOperators

namespace Cert.LowRank

/-- The embedding of the reals in the extended reals carries a finite sum to the sum of the embedded terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: both sides are the double sum of `x k * a r k * c * b r`. -/
theorem regroup_real {K R : Type*} [Fintype K] [Fintype R] (x : K → ℝ) (a : R → K → ℝ) (b : R → ℝ) (c : ℝ) :
    ∑ r, ((∑ k, x k * a r k) * c) * b r = ∑ k, x k * ((∑ r, b r * a r k) * c) := by
  simp only [Finset.sum_mul, Finset.mul_sum]
  rw [Finset.sum_comm]
  exact Finset.sum_congr rfl fun k _ => Finset.sum_congr rfl fun r _ => by ring

/-- The law over extended reals all of whose entries are real numbers. -/
theorem regroup {K R : Type*} [Fintype K] [Fintype R] (x : K → EReal) (a : R → K → EReal) (b : R → EReal) (c : EReal)
    (hx : ∀ k, ∃ v : ℝ, x k = v) (ha : ∀ r k, ∃ v : ℝ, a r k = v) (hb : ∀ r, ∃ v : ℝ, b r = v)
    (hc : ∃ v : ℝ, c = v) :
    ∑ r, ((∑ k, x k * a r k) * c) * b r = ∑ k, x k * ((∑ r, b r * a r k) * c) := by
  choose x' hx using hx
  choose a' ha using ha
  choose b' hb using hb
  obtain ⟨c', rfl⟩ := hc
  simp only [hx, ha, hb, ← EReal.coe_mul, ← coe_sum]
  exact congrArg _ (regroup_real x' a' b' c')

end Cert.LowRank
-- ==== Proof.Spec.lean ====
/-
  What both programs compute, index by index, on the extended reals.

  The inputs are x of shape [4, 2048, 4096], a down-projection A of shape [16, 4096], an up-projection B of shape
  [4096, 16] and a bias of 4096 entries; the scale is the float literal 2.  The result at (b, s, o) is

      sum over i of x[b,s,i] * W[o,i] + bias[o],   W[o,i] = (sum over r of B[o,r] * A[r,i]) * 2.

  One program forms W first (the dense arrangement); the other contracts x with A first, scales the 16 numbers it
  gets, and then contracts those with row o of B (the arrangement through the rank-16 bottleneck), working on x
  flattened to 8192 rows.  For inputs all of whose entries are real numbers the two agree, by the regrouping law
  of the finite double sum; the bias is added to equal numbers, so it may be any extended real.
-/
import proofs.«171899_j14448269984184_2_alg».proof.Proof.SumLaw
import Idealize.ShloMosaic.PureOps.Ideal
import Idealize.ShloMosaic.Lib.ValueIdx

noncomputable section

namespace Cert.LowRank

open Idealize.ShloMosaic Idealize.ShloMosaic.ValueIdx

abbrev SX : Shape := ⟨3, ![4, 2048, 4096]⟩
abbrev SA : Shape := ⟨2, ![16, 4096]⟩
abbrev SB : Shape := ⟨2, ![4096, 16]⟩
abbrev Sbias : Shape := ⟨1, ![4096]⟩
abbrev SRows : Shape := ⟨2, ![8192, 4096]⟩
abbrev SBiasRow : Shape := ⟨2, ![1, 4096]⟩

/-- The scale both programs spell: the float word of 2. -/
def scale : EReal := Ideal.ofBits .f32 0x40000000#32

/-- The scale's word denotes the real number 2. -/
theorem scale_real : scale = ((2 : ℝ) : EReal) := by
  unfold scale
  simp [Ideal.ofBits, Ideal.ieee, -EReal.coe_mul]; norm_num

/-- The result at (b, s, o) through the bottleneck: contract row (b, s) of x with each of the 16 rows of A, scale,
    contract with row o of B, add the bias. -/
def bottleneckEntry (x : SX.Idx → EReal) (A : SA.Idx → EReal) (B : SB.Idx → EReal) (bias : Sbias.Idx → EReal)
    (b : Fin 4) (s : Fin 2048) (o : Fin 4096) : EReal :=
  (∑ r : Fin 16, ((∑ k : Fin 4096, x (ix3 b s k) * A (ix2 r k)) * scale) * B (ix2 o r)) + bias (ix1 o)

/-- The result at (b, s, o) in the dense arrangement: contract row (b, s) of x with row o of W = (B A) * 2. -/
def denseEntry (x : SX.Idx → EReal) (A : SA.Idx → EReal) (B : SB.Idx → EReal) (bias : Sbias.Idx → EReal)
    (b : Fin 4) (s : Fin 2048) (o : Fin 4096) : EReal :=
  (∑ k : Fin 4096, x (ix3 b s k) * ((∑ r : Fin 16, B (ix2 o r) * A (ix2 r k)) * scale)) + bias (ix1 o)

/-- The two arrangements as whole arrays. -/
def bottleneck (x : SX.Idx → EReal) (A : SA.Idx → EReal) (B : SB.Idx → EReal) (bias : Sbias.Idx → EReal) :
    SX.Idx → EReal := fun i => bottleneckEntry x A B bias (i 0) (i 1) (i 2)
def dense (x : SX.Idx → EReal) (A : SA.Idx → EReal) (B : SB.Idx → EReal) (bias : Sbias.Idx → EReal) :
    SX.Idx → EReal := fun i => denseEntry x A B bias (i 0) (i 1) (i 2)

/-- The bottleneck arrangement on x flattened to 8192 rows, with the bias held as a one-row matrix: row p, column q. -/
def rowsEntry (X : SRows.Idx → EReal) (A : SA.Idx → EReal) (B : SB.Idx → EReal) (biasRow : SBiasRow.Idx → EReal)
    (p : Fin 8192) (q : Fin 4096) : EReal :=
  (∑ r : Fin 16, ((∑ k : Fin 4096, X (ix2 p k) * A (ix2 r k)) * scale) * B (ix2 q r)) + biasRow (ix2 (0 : Fin 1) q)
def rows (X : SRows.Idx → EReal) (A : SA.Idx → EReal) (B : SB.Idx → EReal) (biasRow : SBiasRow.Idx → EReal) :
    SRows.Idx → EReal := fun i => rowsEntry X A B biasRow (i 0) (i 1)

/-- For real inputs the two arrangements agree at every index. -/
theorem bottleneckEntry_eq_denseEntry (x : SX.Idx → EReal) (A : SA.Idx → EReal) (B : SB.Idx → EReal) (bias : Sbias.Idx → EReal)
    (hx : ∀ i, ∃ v : ℝ, x i = v) (hA : ∀ i, ∃ v : ℝ, A i = v) (hB : ∀ i, ∃ v : ℝ, B i = v)
    (b : Fin 4) (s : Fin 2048) (o : Fin 4096) :
    bottleneckEntry x A B bias b s o = denseEntry x A B bias b s o :=
  congrArg (· + bias (ix1 o))
    (regroup (fun k : Fin 4096 => x (ix3 b s k)) (fun (r : Fin 16) (k : Fin 4096) => A (ix2 r k)) (fun r : Fin 16 => B (ix2 o r)) scale
      (fun _ => hx _) (fun _ _ => hA _) (fun _ => hB _) ⟨2, scale_real⟩)

/-- So they agree as arrays. -/
theorem bottleneck_eq_dense (x : SX.Idx → EReal) (A : SA.Idx → EReal) (B : SB.Idx → EReal) (bias : Sbias.Idx → EReal)
    (hx : ∀ i, ∃ v : ℝ, x i = v) (hA : ∀ i, ∃ v : ℝ, A i = v) (hB : ∀ i, ∃ v : ℝ, B i = v) :
    bottleneck x A B bias = dense x A B bias :=
  funext fun i => bottleneckEntry_eq_denseEntry x A B bias hx hA hB (i 0) (i 1) (i 2)

end Cert.LowRank

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.KernelEntry.lean ====
/-
  The kernel body's stored value, at an entry of its block.

  On a block of 512 rows of the flattened x, the whole A, the whole B and the bias row, the body stores, at
  (p, q): row p of the block contracted with each of the 16 rows of A (a product accumulated into zeros), each
  scaled, then contracted with row q of B (again into zeros), plus the bias row's entry q, repeated down the 512
  rows.
-/
import proofs.«171899_j14448269984184_2_alg».proof.Proof.Spec
import proofs.«171899_j14448269984184_2_alg».proof.Proof.LibContractLast
import proofs.«171899_j14448269984184_2_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Entry

open Cert.KernelIdeal Cert.KernelIdeal.Gen Cert.LowRank Cert.Hand Idealize.ShloMosaic Idealize.ShloMosaic.ValueIdx

/-- The first product, into zeros: entry (p, q) contracts row p of the left operand with row q of the right. -/
theorem down_apply (l : FVec Ideal S512x4096 .f32) (r : FVec Ideal S16x4096 .f32) (p : Fin 512) (q : Fin 16) :
    matmul dot_S512x4096_S16x4096_S512x16_1_1_0_0_n_n none l r (constant (F := Ideal) S512x16 .f32 0x00000000#32) (ix2 p q)
      = ∑ k : Fin 4096, l (ix2 p k) * r (ix2 q k) := by
  refine (Ideal.matmul_constant_zero_apply dot_S512x4096_S16x4096_S512x16_1_1_0_0_n_n none l r (ix2 p q)).trans ?_
  contract_last dot_S512x4096_S16x4096_S512x16_1_1_0_0_n_n S512x4096 S16x4096 4096

/-- The second product, into zeros, likewise over the 16 inner entries. -/
theorem up_apply (l : FVec Ideal S512x16 .f32) (r : FVec Ideal S4096x16 .f32) (p : Fin 512) (q : Fin 4096) :
    matmul dot_S512x16_S4096x16_S512x4096_1_1_0_0_n_n none l r (constant (F := Ideal) S512x4096 .f32 0x00000000#32) (ix2 p q)
      = ∑ k : Fin 16, l (ix2 p k) * r (ix2 q k) := by
  refine (Ideal.matmul_constant_zero_apply dot_S512x16_S4096x16_S512x4096_1_1_0_0_n_n none l r (ix2 p q)).trans ?_
  contract_last dot_S512x16_S4096x16_S512x4096_1_1_0_0_n_n S512x16 S4096x16 16

/-- The stored value at (p, q). -/
theorem pay_apply (x0 : Vec Ideal S512x4096 .f32) (x1 : Vec Ideal S16x4096 .f32) (x2 : Vec Ideal S4096x16 .f32)
    (x3 : Vec Ideal S1x4096 .f32) (p : Fin 512) (q : Fin 4096) :
    k0_pay1 (F := Ideal) x0 x1 x2 x3 (ix2 p q)
      = (∑ r : Fin 16, ((∑ k : Fin 4096, x0 (ix2 p k) * x1 (ix2 r k)) * scale) * x2 (ix2 q r)) + x3 (ix2 (0 : Fin 1) q) := by
  unfold k0_pay1
  rw [addf_apply, up_apply, broadcastTo_1b_ab_apply, shapeCast_self, shapeCast_self]
  refine congrArg (· + x3 (ix2 (0 : Fin 1) q)) (Finset.sum_congr rfl fun r _ => ?_)
  rw [mulf_apply, down_apply, broadcast_apply]
  rfl

end Cert.KernelIdeal.Entry

end
-- ==== Proof.Layout.lean ====
/-
  Flattening and restoring the leading axes around the row-wise computation.

  The array x of shape [4, 2048, 4096] flattened to [8192, 4096] holds entry (b, s, k) at row b * 2048 + s, column
  k: both positions are (b * 2048 + s) * 4096 + k in row-major order.  The bias of 4096 entries held as a
  one-row matrix reads entry o at (0, o).  So computing by rows on the flattened x and restoring the three axes
  gives, at (b, s, o), the bottleneck arrangement's value there.
-/
import proofs.«171899_j14448269984184_2_alg».proof.Proof.Spec
import Idealize.ShloMosaic.Lib.Pipeline.Value
import Idealize.ShloMosaic.Lib.ValueLayout

noncomputable section

namespace Cert.LowRank

open Idealize.ShloMosaic Idealize.ShloMosaic.ValueIdx

/-- The row of the flattened array that holds (b, s). -/
def rowOf (b : Fin 4) (s : Fin 2048) : Fin 8192 := ⟨b.val * 2048 + s.val, by omega⟩

/-- The flattened x at (row of (b, s), k) is x at (b, s, k). -/
theorem flatten_apply (x : SX.Idx → EReal) (h : SX.ShapeCasts SRows) (b : Fin 4) (s : Fin 2048) (k : Fin 4096) :
    shapeCast SRows x h (ix2 (rowOf b s) k) = x (ix3 b s k) :=
  shapeCast_apply x h _ _ (by
    rw [Shape.rowMajor_val_three, Shape.rowMajor_val_two]
    rfl)

/-- A [8192, 4096] array restored to three axes reads, at (b, s, o), its entry at (row of (b, s), o). -/
theorem unflatten_apply (Y : SRows.Idx → EReal) (h : SRows.ShapeCasts SX) (b : Fin 4) (s : Fin 2048) (o : Fin 4096) :
    shapeCast SX Y h (ix3 b s o) = Y (ix2 (rowOf b s) o) :=
  shapeCast_apply Y h _ _ (by
    rw [Shape.rowMajor_val_three, Shape.rowMajor_val_two]
    rfl)

/-- Flatten x, hold the bias as a row, compute by rows, restore the axes: the bottleneck arrangement. -/
theorem unflatten_rows (x : SX.Idx → EReal) (A : SA.Idx → EReal) (B : SB.Idx → EReal) (bias : Sbias.Idx → EReal)
    (h0 : SX.ShapeCasts SRows) (h1 : Sbias.ShapeCasts SBiasRow) (h2 : SRows.ShapeCasts SX) :
    shapeCast SX (rows (shapeCast SRows x h0) A B (shapeCast SBiasRow bias h1)) h2 = bottleneck x A B bias := by
  funext i
  obtain ⟨b, s, o, rfl⟩ : ∃ (b : Fin 4) (s : Fin 2048) (o : Fin 4096), i = ix3 b s o := ⟨i 0, i 1, i 2, eq_ix3 i⟩
  rw [unflatten_apply]
  show rowsEntry (shapeCast SRows x h0) A B (shapeCast SBiasRow bias h1) (rowOf b s) o = bottleneckEntry x A B bias b s o
  unfold rowsEntry bottleneckEntry
  simp only [flatten_apply, shapeCast_a_1a_apply]

end Cert.LowRank

end
-- ==== Proof.KernelArray.lean ====
/-
  From the blocks the kernel writes back to its whole result.

  The grid has 16 points.  Point t stages rows t * 512 .. t * 512 + 511 of the flattened x, the whole of A, B and
  the bias row, and writes back the same 512 rows of the [8192, 4096] output: block t of the row-wise function
  `rows` of the arrays the region finds.  The 16 blocks cover every row (row p lies in block p / 512), so the
  output array ends at `rows` of those arrays.  Before the region the host flattens x and turns the bias into a
  row; after it, the host restores the three axes: by the layout lemma the program's result is the bottleneck
  arrangement of the four arguments.
-/
import proofs.«171899_j14448269984184_2_alg».proof.Proof.KernelEntry
import proofs.«171899_j14448269984184_2_alg».proof.Proof.Layout
import proofs.«171899_j14448269984184_2_alg».proof.Proof.Gen.KernelIdeal.Frame
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Entry Cert.LowRank
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's rectangles start at the zero offsets. -/
theorem zero_off : (![0, 0] : Fin 2 → Nat) = fun _ => 0 := funext fun a => by fin_cases a <;> rfl

/-- The printed index maps, decided over the 16 points: x's block and the output's block are block t down the rows
    and the only block across the columns; A, B and the bias row are always their only block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is row t * 512 + p of the array. -/
def blockRow (t : Fin cfg0.N) (p : Fin 512) : Fin 8192 :=
  ⟨t.val * 512 + p.val, by have ht : t.val < grid0.N := t.isLt; have hN : grid0.N = 16 := N_0; omega⟩

/-- x's block at point t reads the flattened x, as the region finds it, at the block's rows. -/
theorem xblk_apply (c : Dev nD) (t : Fin cfg0.N) (p : Fin 512) (k : Fin 4096) :
    iblk m c 0 t (ix2 p k) = V m c main_v0 (ix2 (blockRow t p) k) := by
  obtain ⟨e0, e1, -⟩ := index_facts t
  show V m c main_v0 (((cfg0.win 0).blk t).view.emb (ix2 p k)) = _
  refine congrArg (V m c main_v0) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * k.val = k.val; omega

/-- A's block is the whole of A. -/
theorem ablk_apply (c : Dev nD) (t : Fin cfg0.N) (r : Fin 16) (k : Fin 4096) :
    iblk m c 1 t (ix2 r k) = V m c main_arg1 (ix2 r k) := by
  obtain ⟨-, -, e2, e3, -⟩ := index_facts t
  show V m c main_arg1 (((cfg0.win 1).blk t).view.emb (ix2 r k)) = _
  refine congrArg (V m c main_arg1) (funext fun a => Fin.ext ?_)
  match a with
  | ⟨0, _⟩ => show win0_1.index t (0 : Fin 2) * 16 + 1 * r.val = r.val; omega
  | ⟨1, _⟩ => show win0_1.index t (1 : Fin 2) * 4096 + 1 * k.val = k.val; omega

/-- B's block is the whole of B. -/
theorem bblk_apply (c : Dev nD) (t : Fin cfg0.N) (q : Fin 4096) (r : Fin 16) :
    iblk m c 2 t (ix2 q r) = V m c main_arg2 (ix2 q r) := by
  obtain ⟨-, -, -, -, e4, e5, -⟩ := index_facts t
  show V m c main_arg2 (((cfg0.win 2).blk t).view.emb (ix2 q r)) = _
  refine congrArg (V m c main_arg2) (funext fun a => Fin.ext ?_)
  match a with
  | ⟨0, _⟩ => show win0_2.index t (0 : Fin 2) * 4096 + 1 * q.val = q.val; omega
  | ⟨1, _⟩ => show win0_2.index t (1 : Fin 2) * 16 + 1 * r.val = r.val; omega

/-- The bias row's block is the whole row. -/
theorem biasblk_apply (c : Dev nD) (t : Fin cfg0.N) (q : Fin 4096) :
    iblk m c 3 t (ix2 (0 : Fin 1) q) = V m c main_v1 (ix2 (0 : Fin 1) q) := by
  obtain ⟨-, -, -, -, -, -, e6, e7, -⟩ := index_facts t
  show V m c main_v1 (((cfg0.win 3).blk t).view.emb (ix2 (0 : Fin 1) q)) = _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 4096 + 1 * q.val = q.val; omega

/-- Entry (p, q) of the output's block at t sits at (row t * 512 + p, q) of the output array. -/
theorem outblk_emb (t : Fin cfg0.N) (p : Fin 512) (q : Fin 4096) :
    ((cfg0.win 4).blk t).view.emb (ix2 p q) = (ix2 (blockRow t p) q : S8192x4096.Idx) := by
  obtain ⟨-, -, -, -, -, -, -, -, e8, e9⟩ := index_facts t
  refine funext fun a => Fin.ext ?_
  match a with
  | ⟨0, _⟩ => show win0_4.index t (0 : Fin 2) * 512 + 1 * p.val = t.val * 512 + p.val; omega
  | ⟨1, _⟩ => show win0_4.index t (1 : Fin 2) * 4096 + 1 * q.val = q.val; omega

/-- WHAT POINT t WRITES BACK is block t of `rows` of the arrays the region finds. -/
theorem flushed_eq (c : Dev nD) (t : Fin cfg0.N) :
    (dats m 0 c).flushed 4 t = ((cfg0.win 4).blk t).view.read (Elt Ideal)
      (rows (V m c main_v0) (V m c main_arg1) (V m c main_arg2) (V m c main_v1)) := by
  show (cfg0.win 4).cut (grid0.coords t) ((dats m 0 c).after 4 t) = _
  rw [after0_4]
  unfold out0_4
  rw [View.canon_unit_zero zero_off]
  simp only [View.ld_unit_zero (S := S512x4096) zero_off, View.ld_unit_zero (S := S16x4096) zero_off,
    View.ld_unit_zero (S := S4096x16) zero_off, View.ld_unit_zero (S := S1x4096) zero_off]
  funext j
  obtain ⟨p, q, rfl⟩ : ∃ (p : Fin 512) (q : Fin 4096), j = ix2 p q := ⟨j 0, j 1, eq_ix2 j⟩
  show k0_pay1 (iblk m c 0 t) (iblk m c 1 t) (iblk m c 2 t) (iblk m c 3 t) (ix2 p q)
    = rows (V m c main_v0) (V m c main_arg1) (V m c main_arg2) (V m c main_v1) (((cfg0.win 4).blk t).view.emb (ix2 p q))
  refine (pay_apply (iblk m c 0 t) (iblk m c 1 t) (iblk m c 2 t) (iblk m c 3 t) p q).trans ?_
  rw [outblk_emb]
  show _ = rowsEntry (V m c main_v0) (V m c main_arg1) (V m c main_arg2) (V m c main_v1) (blockRow t p) q
  unfold rowsEntry
  simp only [xblk_apply, ablk_apply, bblk_apply, biasblk_apply]

/-- An index of the output array is in point t's block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v2).slice (win0_4.rect t)).set ↔ _
  rw [View.set_slice_whole, Rect.mem_set_unit]
  exact Iff.rfl

/-- Every index of the output array is in some point's block: row p is in block p / 512. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : grid0.N = 16 := N_0
  have hlt : (i 0).val / 512 < grid0.N := by omega
  refine ⟨⟨(i 0).val / 512, hlt⟩, flush0_4 _, ?_⟩
  rw [mem_blk]
  obtain ⟨-, -, -, -, -, -, -, -, e8, e9⟩ := index_facts ⟨(i 0).val / 512, hlt⟩
  have e8' : win0_4.index ⟨(i 0).val / 512, hlt⟩ (0 : Fin 2) = (i 0).val / 512 := e8
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    omega
  | ⟨1, _⟩ =>
    show win0_4.index ⟨(i 0).val / 512, hlt⟩ (1 : Fin 2) * 4096 ≤ (i 1).val
      ∧ (i 1).val < win0_4.index ⟨(i 0).val / 512, hlt⟩ (1 : Fin 2) * 4096 + 4096
    omega

/-- THE OUTPUT ARRAY after the region: `rows` of the arrays the region finds. -/
theorem final (c : Dev nD) :
    (dats m 0 c).arrAt 4 cfg0.N = rows (V m c main_v0) (V m c main_arg1) (V m c main_arg2) (V m c main_v1) :=
  (dats m 0 c).arrAt_eq_of_cover 4 _ (fun t _ => flushed_eq m c t) cover

/-- The region finds x flattened to 8192 rows: the first host line. -/
theorem V_flat (c : Dev nD) : (V m c main_v0 : S8192x4096.Idx → EReal)
    = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- And the bias as a one-row matrix: the second host line. -/
theorem V_biasRow (c : Dev nD) : (V m c main_v1 : S1x4096.Idx → EReal)
    = shapeCast S1x4096 (m ((c : Thread nD τ).loc main_arg3)) Facts₀.shapeCasts_S4096_S1x4096 := by
  show StableHlo.after hostOps0 (fun b => m (c, b)) (Proc.devRef .tc main_v1) = _
  after_results
  rfl

/-- THE RESULT: the host line after the region restores the three axes of the output array, which is the
    bottleneck arrangement of the four arguments. -/
theorem result (c : Dev nD) :
    Pipeline.afterTail₀ cfgs (dats m) 0 (V0 m) [hostOps1] c main_v3
      = bottleneck (m ((c : Thread nD τ).loc main_arg0)) (m ((c : Thread nD τ).loc main_arg1))
          (m ((c : Thread nD τ).loc main_arg2)) (m ((c : Thread nD τ).loc main_arg3)) := by
  have htail : Pipeline.afterTail₀ cfgs (dats m) 0 (V0 m) [hostOps1] c main_v3
      = shapeCast S4x2048x4096 ((dats m 0 c).arrAt 4 cfg0.N) Facts₀.shapeCasts_S8192x4096_S4x2048x4096 := by
    unfold Pipeline.afterTail₀
    show StableHlo.after hostOps1 _ (Proc.devRef .tc main_v3) = _
    after_results
    rw [Pipeline.withArrays_arr spec0 launch0.win.arr_inj c _ _ 4]
    rfl
  rw [htail, final, V_flat, V_biasRow, V_main_arg1, V_main_arg2]
  exact unflatten_rows _ _ _ _ _ _ _

/-- THE RUN: every weakly fair execution terminates with the result buffer at the bottleneck arrangement of the
    arguments, and the arguments unchanged. -/
theorem run : θ_run defs (onTc (τ := τ) (main (F := Ideal))) ⟨m, fun _ => 0, ρ⟩ fun r => ∀ c : Dev nD,
      r.2.mem ((c.tc : Thread nD τ).loc main_v3)
        = bottleneck (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference computes the dense arrangement.

  Its operations, read one at a time at an index: W[o,i] is the product of B and A contracted over the 16 inner
  entries, times the scale; the result at (b, s, o) contracts row (b, s) of x with row o of W over the 4096 inner
  entries and adds the bias entry o, broadcast over the two leading axes.
-/
import proofs.«171899_j14448269984184_2_alg».proof.Proof.Spec
import proofs.«171899_j14448269984184_2_alg».proof.Proof.Gen.ReferenceIdeal.Read

noncomputable section

namespace Cert.ReferenceIdeal.RefValue

open Cert.ReferenceIdeal Cert.ReferenceIdeal.Read Cert.LowRank Idealize.ShloMosaic Idealize.ShloMosaic.ValueIdx

/-- The reference's last stage, at the ideal instance, is the dense arrangement of its four arguments. -/
theorem result_eq_dense (x0 : FVec Ideal S4x2048x4096 .f32) (x1 : FVec Ideal S16x4096 .f32) (x2 : FVec Ideal S4096x16 .f32)
    (x3 : FVec Ideal S4096 .f32) :
    val_main_v6 (F := Ideal) x0 x1 x2 x3 = dense x0 x1 x2 x3 := by
  funext i
  obtain ⟨b, s, o, rfl⟩ : ∃ (b : Fin 4) (s : Fin 2048) (o : Fin 4096), i = ix3 b s o := ⟨i 0, i 1, i 2, eq_ix3 i⟩
  have eL : ∀ k : Fin 4096, lidx_main_v3 (ix3 b s o) k = ix3 b s k := fun k => funext fun a => by
    match a with
    | ⟨0, _⟩ => rfl
    | ⟨1, _⟩ => rfl
    | ⟨2, _⟩ => rfl
  have eR : ∀ k : Fin 4096, ridx_main_v3 (ix3 b s o) k = ix2 o k := fun k => funext fun a => by
    match a with
    | ⟨0, _⟩ => rfl
    | ⟨1, _⟩ => rfl
  have eL0 : ∀ (k : Fin 4096) (r : Fin 16), lidx_main_v0 (ix2 o k) r = ix2 o r := fun k r => funext fun a => by
    match a with
    | ⟨0, _⟩ => rfl
    | ⟨1, _⟩ => rfl
  have eR0 : ∀ (k : Fin 4096) (r : Fin 16), ridx_main_v0 (ix2 o k) r = ix2 r k := fun k r => funext fun a => by
    match a with
    | ⟨0, _⟩ => rfl
    | ⟨1, _⟩ => rfl
  have eB : idx_main_v4 (idx_main_v5 (ix3 b s o)) = ix1 o := funext fun a => by
    match a with
    | ⟨0, _⟩ => rfl
  rw [val_main_v6_apply, val_main_v3_apply, val_main_v5_apply, val_main_v4_apply]
  simp only [val_main_v2_apply, val_main_v0_apply, val_main_v1_apply, val_main_cst_apply, eL, eR, eL0, eR0, eB]
  rfl

end Cert.ReferenceIdeal.RefValue

end
-- ==== Proof.Finite.lean ====
/-
  What the precondition says of the inputs: every entry is a real number.

  The precondition is the conjunction, over the four inputs, of "every entry's absolute value is below the float
  word of +infinity".  On the extended reals that word denotes the top element, and |x| below the top element
  excludes both infinities, so x is a real number.
-/
import proofs.«171899_j14448269984184_2_alg».proof.Pre_finite_inputs
import proofs.«171899_j14448269984184_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

/-- The rank-0 shape has one index. -/
instance : Subsingleton S_.Idx := ⟨fun _ _ => funext fun d => d.elim0⟩

/-- An extended real whose absolute value compares below the word of +infinity is a real number. -/
theorem real_of_abs_lt_inf (x : EReal)
    (h : Ideal.cmp .olt (max x (-x)) (Ideal.ofBits .f32 0x7F800000#32) = 1#1) : ∃ v : ℝ, x = v := by
  have hinf : Ideal.ofBits .f32 0x7F800000#32 = (⊤ : EReal) := by simp [Ideal.ofBits, Ideal.ieee]
  rw [hinf] at h
  induction x using EReal.rec with
  | bot => simp [Ideal.cmp] at h
  | coe v => exact ⟨v, rfl⟩
  | top => simp [Ideal.cmp] at h

/-- Under the precondition every entry of every input is a real number. -/
theorem all_real (x0 : FVec Ideal S4x2048x4096 .f32) (x1 : FVec Ideal S16x4096 .f32) (x2 : FVec Ideal S4096x16 .f32)
    (x3 : FVec Ideal S4096 .f32) (h : fn (F := Ideal) x0 x1 x2 x3 = fun _ => 1#1) :
    (∀ i, ∃ v : ℝ, x0 i = v) ∧ (∀ i, ∃ v : ℝ, x1 i = v) ∧ (∀ i, ∃ v : ℝ, x2 i = v) ∧ (∀ i, ∃ v : ℝ, x3 i = v) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_inf (x0 i) (Host.reduce_andi_all _ _ _ _ _ h0' i),
    fun i => real_of_abs_lt_inf (x1 i) (Host.reduce_andi_all _ _ _ _ _ h1 i),
    fun i => real_of_abs_lt_inf (x2 i) (Host.reduce_andi_all _ _ _ _ _ h2 i),
    fun i => real_of_abs_lt_inf (x3 i) (Host.reduce_andi_all _ _ _ _ _ h3 i)⟩

end Cert.Pre_finite_inputs.Finite

end
-- ==== Proof.lean ====
/-
  A rank-16 update applied to x, computed two ways.

  With x of shape [4, 2048, 4096], A of shape [16, 4096], B of shape [4096, 16], a bias of 4096 entries and the
  scale 2, the reference forms the 4096 x 4096 matrix W = (B A) * 2 and returns x W^T + bias.  The kernel never
  forms W: on x flattened to 8192 rows, 512 rows per grid point, it computes (x A^T) * 2, a matrix with 16
  columns, multiplies that by B^T and adds the bias.  On the extended reals the two results are the same finite
  double sum of x[b,s,i] * A[r,i] * 2 * B[o,r] arranged in two orders; passing from one to the other distributes
  products over sums, which is sound because the precondition makes every entry of x, A and B a real number.
  The bias is added last on both sides and may be any extended real.

  The frames of the two kernel programs are the generated ones; the reference's frame is its generated run with
  the result dropped.  The idealization rewrote nothing, so there is nothing to preserve.
-/
import proofs.«171899_j14448269984184_2_alg».proof.Defs
import proofs.«171899_j14448269984184_2_alg».proof.Proof.Gen.Kernel
import proofs.«171899_j14448269984184_2_alg».proof.Proof.Gen.Kernel.Skeleton
import proofs.«171899_j14448269984184_2_alg».proof.Proof.Gen.Kernel.Launch
import proofs.«171899_j14448269984184_2_alg».proof.Proof.Gen.Kernel.Points
import proofs.«171899_j14448269984184_2_alg».proof.Proof.Gen.Kernel.Frame
import proofs.«171899_j14448269984184_2_alg».proof.Proof.Gen.KernelIdeal
import proofs.«171899_j14448269984184_2_alg».proof.Proof.Gen.KernelIdeal.Skeleton
import proofs.«171899_j14448269984184_2_alg».proof.Proof.Gen.KernelIdeal.Launch
import proofs.«171899_j14448269984184_2_alg».proof.Proof.Gen.KernelIdeal.Points
import proofs.«171899_j14448269984184_2_alg».proof.Proof.Gen.KernelIdeal.Frame
import proofs.«171899_j14448269984184_2_alg».proof.Proof.Gen.ReferenceIdeal
import proofs.«171899_j14448269984184_2_alg».proof.Proof.Gen.ReferenceIdeal.Run
import proofs.«171899_j14448269984184_2_alg».proof.Proof.Gen.ReferenceIdeal.Read
import proofs.«171899_j14448269984184_2_alg».proof.Proof.Gen.Pre_finite_inputs
import proofs.«171899_j14448269984184_2_alg».proof.Proof.Spec
import proofs.«171899_j14448269984184_2_alg».proof.Proof.KernelArray
import proofs.«171899_j14448269984184_2_alg».proof.Proof.RefValue
import proofs.«171899_j14448269984184_2_alg».proof.Proof.Finite
import Idealize.ShloMosaic.Adequacy
import Idealize.ShloMosaic.Init

noncomputable section

namespace Cert.Proof

open Idealize.ShloMosaic Idealize.SL.Sem Cert.LowRank

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel ends at the bottleneck arrangement of its arguments, the reference at the dense arrangement of
    arguments that agree with them; the precondition makes the entries real, where the two arrangements agree. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -⟩ := Cert.Pre_finite_inputs.Finite.all_real _ _ _ _ (hpre c)
  rw [(hagree c).1, (hagree c).2.1, (hagree c).2.2.1, (hagree c).2.2.2]
  exact ((Cert.ReferenceIdeal.Read.val_main_v6_eq _ _ _ _).trans
    (Cert.ReferenceIdeal.RefValue.result_eq_dense _ _ _ _)).trans (bottleneck_eq_dense _ _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
